-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x768 : Shape := ⟨3, ![64, 64, 768]⟩
abbrev S64x64x512 : Shape := ⟨3, ![64, 64, 512]⟩
abbrev S768 : Shape := ⟨1, ![768]⟩
abbrev S_ : Shape := ⟨0, ![]⟩

class Facts : Prop where
  bcast_S_S64x64x768 : S_.BroadcastsInDim S64x64x768 (![] : Fin 0 → Fin S64x64x768.rank)
  reducesTo_S64x64x768_S_d0_1_2 : S64x64x768.ReducesTo [0, 1, 2] S_
  h_S_ : 0 < S_.numel
  bcast_S_S64x64x512 : S_.BroadcastsInDim S64x64x512 (![] : Fin 0 → Fin S64x64x512.rank)
  reducesTo_S64x64x512_S_d0_1_2 : S64x64x512.ReducesTo [0, 1, 2] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S64x64x768 .f32) (main_arg1 : FVec F S64x64x512 .f32) (main_arg2 : FVec F S768 .f32) (main_arg3 : FVec F S768 .f32) : IVec S_ 1 :=
  let main_v0 : FVec F S64x64x768 .f32 := Host.absf main_arg0
  let main_cst : FVec F S_ .f32 := constant S_ .f32 0x7F800000#32
  let main_v1 : FVec F S64x64x768 .f32 := broadcastInDim S64x64x768 ![] bcast_S_S64x64x768 main_cst
  let main_v2 : IVec S64x64x768 1 := cmpf .olt main_v0 main_v1
  let main_c : IVec S_ 1 := constantI S_ 1 1#1
  let main_v3 : IVec S_ 1 := (fun x v => Host.reduce IntOp.andi x v reducesTo_S64x64x768_S_d0_1_2 h_S_) main_v2 main_c
  let main_v4 : FVec F S64x64x512 .f32 := Host.absf main_arg1
  let main_cst_0 : FVec F S_ .f32 := constant S_ .f32 0x7F800000#32
  let main_v5 : FVec F S64x64x512 .f32 := broadcastInDim S64x64x512 ![] bcast_S_S64x64x512 main_cst_0
  let main_v6 : IVec S64x64x512 1 := cmpf .olt main_v4 main_v5
  let main_c_1 : IVec S_ 1 := constantI S_ 1 1#1
  let main_v7 : IVec S_ 1 := (fun x v => Host.reduce IntOp.andi x v reducesTo_S64x64x512_S_d0_1_2 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S64x64x768 : Shape := ⟨3, ![64, 64, 768]⟩
abbrev S64x64x512 : Shape := ⟨3, ![64, 64, 512]⟩
abbrev S768 : Shape := ⟨1, ![768]⟩
abbrev S64x512x768 : Shape := ⟨3, ![64, 512, 768]⟩
abbrev S4x64x768 : Shape := ⟨3, ![4, 64, 768]⟩
abbrev S4x64x512 : Shape := ⟨3, ![4, 64, 512]⟩
abbrev S4x512x768 : Shape := ⟨3, ![4, 512, 768]⟩
abbrev S4x512 : Shape := ⟨2, ![4, 512]⟩
abbrev S4x512x1 : Shape := ⟨3, ![4, 512, 1]⟩
abbrev S1x1x768 : Shape := ⟨3, ![1, 1, 768]⟩

abbrev nBuf : Space → Nat
  | .hbm => 5
  | .vmem => 8
  | .smem => 0
  | _ => 0

abbrev bufTy : (tb : Table) → Fin (tcTables nBuf tb) → BufTy
  | .hbm, ⟨0, _⟩ => ⟨S64x64x768, .f32⟩
  | .hbm, ⟨1, _⟩ => ⟨S64x64x512, .f32⟩
  | .hbm, ⟨2, _⟩ => ⟨S768, .f32⟩
  | .hbm, ⟨3, _⟩ => ⟨S768, .f32⟩
  | .hbm, ⟨4, _⟩ => ⟨S64x512x768, .f32⟩
  | .local _ .vmem, ⟨0, _⟩ => ⟨S4x64x768, .f32⟩
  | .local _ .vmem, ⟨1, _⟩ => ⟨S4x64x768, .f32⟩
  | .local _ .vmem, ⟨2, _⟩ => ⟨S4x64x512, .f32⟩
  | .local _ .vmem, ⟨3, _⟩ => ⟨S4x64x512, .f32⟩
  | .local _ .vmem, ⟨4, _⟩ => ⟨S768, .f32⟩
  | .local _ .vmem, ⟨5, _⟩ => ⟨S768, .f32⟩
  | .local _ .vmem, ⟨6, _⟩ => ⟨S4x512x768, .f32⟩
  | .local _ .vmem, ⟨7, _⟩ => ⟨S4x512x768, .f32⟩
  | _, _ => ⟨S64x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S4x64x768_S4x64x768_0_0_0 : ∀ a, (![0, 0, 0] : Fin 3 → Nat) a + S4x64x768.size a ≤ S4x64x768.size a
  h_S4x64x768 : 0 < S4x64x768.numel
  bitsLt_bf16_f32 : FTy.bits .bf16 < FTy.bits .f32
  inb_S4x64x512_S4x64x512_0_0_0 : ∀ a, (![0, 0, 0] : Fin 3 → Nat) a + S4x64x512.size a ≤ S4x64x512.size a
  h_S4x64x512 : 0 < S4x64x512.numel
  reduces_S4x512x768_S4x512 : S4x512x768.Reduces [2] S4x512
  shapeCasts_S4x512_S4x512x1 : S4x512.ShapeCasts S4x512x1
  broadcasts_S4x512x1_S4x512x768 : S4x512x1.Broadcasts S4x512x768
  inb_S768_S768_0 : ∀ a, (![0] : Fin 1 → Nat) a + S768.size a ≤ S768.size a
  h_S768 : 0 < S768.numel
  shapeCasts_S768_S1x1x768 : S768.ShapeCasts S1x1x768
  broadcasts_S1x1x768_S4x512x768 : S1x1x768.Broadcasts S4x512x768
  inb_S4x512x768_S4x512x768_0_0_0 : ∀ a, (![0, 0, 0] : Fin 3 → Nat) a + S4x512x768.size a ≤ S4x512x768.size a
  h_S4x512x768 : 0 < S4x512x768.numel
  dot_S4x64x512_S4x64x768_S4x512x768_1_1_2_2_0_0_wf : DotDims.WF S4x64x512 S4x64x768 S4x512x768 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x768.size a ≤ S64x64x768.size a
  hwx0_0 : ∀ i : grid0.Coords, EltTy.bits .f32 = 32 ∨ (Rect.block (s := S64x64x768) S4x64x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x512.size a ≤ S64x64x512.size a
  hwx0_1 : ∀ i : grid0.Coords, EltTy.bits .f32 = 32 ∨ (Rect.block (s := S64x64x512) S4x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x768.size a ≤ S64x512x768.size a
  hwx0_4 : ∀ i : grid0.Coords, EltTy.bits .f32 = 32 ∨ (Rect.block (s := S64x512x768) S4x512x768.size (cc0_transform_4 i) (hinb0_4 i)).WholeWords (EltTy.packing .f32)

variable [Facts₀]

def dot_S4x64x512_S4x64x768_S4x512x768_1_1_2_2_0_0 : DotDims S4x64x512 S4x64x768 S4x512x768 where
  lhsContracting := [1]
  rhsContracting := [1]
  lhsNonContracting := [2]
  rhsNonContracting := [2]
  lhsBatch := [0]
  rhsBatch := [0]
  wf := dot_S4x64x512_S4x64x768_S4x512x768_1_1_2_2_0_0_wf

abbrev win0_0 : Pipeline.Window sig grid0 :=
  Pipeline.Window.ofSpec (Memref.whole main_arg0) S4x64x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4x512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x64x768 : Shape := ⟨3, ![64, 64, 768]⟩
abbrev S64x64x512 : Shape := ⟨3, ![64, 64, 512]⟩
abbrev S768 : Shape := ⟨1, ![768]⟩
abbrev S64x512x768 : Shape := ⟨3, ![64, 512, 768]⟩
abbrev S_ : Shape := ⟨0, ![]⟩
abbrev S64x512 : Shape := ⟨2, ![64, 512]⟩
abbrev S64x512x1 : Shape := ⟨3, ![64, 512, 1]⟩
abbrev S1x1x768 : Shape := ⟨3, ![1, 1, 768]⟩

abbrev nBuf : Space → Nat
  | .hbm => 34
  | .vmem => 0
  | .smem => 0
  | _ => 0

abbrev bufTy : (tb : Table) → Fin (tcTables nBuf tb) → BufTy
  | .hbm, ⟨0, _⟩ => ⟨S64x64x768, .f32⟩
  | .hbm, ⟨1, _⟩ => ⟨S64x64x512, .f32⟩
  | .hbm, ⟨2, _⟩ => ⟨S768, .f32⟩
  | .hbm, ⟨3, _⟩ => ⟨S768, .f32⟩
  | .hbm, ⟨4, _⟩ => ⟨S64x512x768, .f32⟩
  | .hbm, ⟨5, _⟩ => ⟨S_, .f32⟩
  | .hbm, ⟨6, _⟩ => ⟨S64x512, .f32⟩
  | .hbm, ⟨7, _⟩ => ⟨S64x512x1, .f32⟩
  | .hbm, ⟨8, _⟩ => ⟨S_, .f32⟩
  | .hbm, ⟨9, _⟩ => ⟨S64x512x1, .f32⟩
  | .hbm, ⟨10, _⟩ => ⟨S64x512x1, .f32⟩
  | .hbm, ⟨11, _⟩ => ⟨S64x512x768, .f32⟩
  | .hbm, ⟨12, _⟩ => ⟨S64x512x768, .f32⟩
  | .hbm, ⟨13, _⟩ => ⟨S64x512x768, .f32⟩
  | .hbm, ⟨14, _⟩ => ⟨S_, .f32⟩
  | .hbm, ⟨15, _⟩ => ⟨S64x512, .f32⟩
  | .hbm, ⟨16, _⟩ => ⟨S64x512x1, .f32⟩
  | .hbm, ⟨17, _⟩ => ⟨S_, .f32⟩
  | .hbm, ⟨18, _⟩ => ⟨S64x512x1, .f32⟩
  | .hbm, ⟨19, _⟩ => ⟨S64x512x1, .f32⟩
  | .hbm, ⟨20, _⟩ => ⟨S64x512x768, .f32⟩
  | .hbm, ⟨21, _⟩ => ⟨S64x512x768, .f32⟩
  | .hbm, ⟨22, _⟩ => ⟨S_, .f32⟩
  | .hbm, ⟨23, _⟩ => ⟨S64x512x1, .f32⟩
  | .hbm, ⟨24, _⟩ => ⟨S64x512x1, .f32⟩
  | .hbm, ⟨25, _⟩ => ⟨S64x512x1, .f32⟩
  | .hbm, ⟨26, _⟩ => ⟨S64x512x768, .f32⟩
  | .hbm, ⟨27, _⟩ => ⟨S64x512x768, .f32⟩
  | .hbm, ⟨28, _⟩ => ⟨S1x1x768, .f32⟩
  | .hbm, ⟨29, _⟩ => ⟨S64x512x768, .f32⟩
  | .hbm, ⟨30, _⟩ => ⟨S64x512x768, .f32⟩
  | .hbm, ⟨31, _⟩ => ⟨S1x1x768, .f32⟩
  | .hbm, ⟨32, _⟩ => ⟨S64x512x768, .f32⟩
  | .hbm, ⟨33, _⟩ => ⟨S64x512x768, .f32⟩
  | _, _ => ⟨S64x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S64x512x768_S64x512_d2 : S64x512x768.ReducesTo [2] S64x512
  h_S_ : 0 < S_.numel
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S64x512x1_S64x512x768_0_1_2 : S64x512x1.BroadcastsInDim S64x512x768 (![0, 1, 2] : Fin 3 → Fin S64x512x768.rank)
  bcast_S768_S1x1x768_2 : S768.BroadcastsInDim S1x1x768 (![2] : Fin 1 → Fin S1x1x768.rank)
  bcast_S1x1x768_S64x512x768_0_1_2 : S1x1x768.BroadcastsInDim S64x512x768 (![0, 1, 2] : Fin 3 → Fin S64x512x768.rank)
  dot_S64x64x512_S64x64x768_S64x512x768_1_1_2_2_0_0_wf : DotDims.WF S64x64x512 S64x64x768 S64x512x768 [1] [1] [2] [2] [0] [0]

variable [Facts₀]

def dot_S64x64x512_S64x64x768_S64x512x768_1_1_2_2_0_0 : DotDims S64x64x512 S64x64x768 S64x512x768 where
  lhsContracting := [1]
  rhsContracting := [1]
  lhsNonContracting := [2]
  rhsNonContracting := [2]
  lhsBatch := [0]
  rhsBatch := [0]
  wf := dot_S64x64x512_S64x64x768_S64x512x768_1_1_2_2_0_0_wf

class Facts : Prop extends Facts₀ where

variable [Facts]
-- ==== Proof.RowLaw.lean ====
/-
  LayerNorm of one row of 768 extended reals, written the two ways the two programs compute it.

  With S = ∑ x, Q = ∑ x², μ = S / 768:
    * one pass:  variance  Q / 768 − μ · μ
    * two pass:  variance  (∑ (x − μ)²) / 768
  and in both  out h = ((x h − μ) · (variance + ε)^(-1/2)) · g + b.

  Over the real numbers the two variances are one number: ∑ (x − μ)² = Q − 2 μ S + 768 μ² = Q − 768 μ².
  On the extended reals the identity needs every x h to be a real number (with an infinite entry the one-pass
  form meets ∞ − ∞), so the law is stated for rows of reals; a quotient by the real 768 is then the product
  with 1/768, sums and products of reals are reals, and the equation is the real one under the coercion.
  Also here: a finite sum of products of reals is a real (an entry of a matrix product of real matrices).
-/
import Idealize.ShloMosaic.PureOps.Ideal
import Idealize.ShloMosaic.PureOps.Ideal.Laws

noncomputable section

namespace Cert.RowNorm

open Idealize.ShloMosaic

/-! ## Sums of reals inside the extended reals -/

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of reals, taken in the extended reals, is a real. -/
theorem sum_mul_real {ι : Type*} [Fintype ι] (a b : ι → EReal)
    (ha : ∀ k, ∃ r : ℝ, a k = (r : EReal)) (hb : ∀ k, ∃ r : ℝ, b k = (r : EReal)) :
    ∃ r : ℝ, ∑ k, a k * b k = (r : EReal) := by
  choose ra hra using ha
  choose rb hrb using hb
  refine ⟨∑ k, ra k * rb k, ?_⟩
  rw [coe_sum]
  exact Finset.sum_congr rfl fun k _ => by rw [hra k, hrb k, EReal.coe_mul]

/-! ## The constants -/

/-- The word 0x44400000 is the float 768.0: the real number 768. -/
theorem ofBits_768 : Ideal.ofBits .f32 0x44400000#32 = ((768 : ℝ) : EReal) := by
  simp [Ideal.ofBits, Ideal.ieee, -EReal.coe_mul]; norm_num

/-! ## The two spellings of a normalized row -/

/-- The row's mean as the kernel takes it: the sum over 768. -/
def meanK (x : Fin 768 → EReal) : EReal := Ideal.div (∑ k, x k) (Ideal.ofBits .f32 0x44400000#32)

/-- The row's mean as the reference takes it: the sum started from the float zero, over 768. -/
def meanR (x : Fin 768 → EReal) : EReal :=
  Ideal.div (Ideal.ofBits .f32 0x00000000#32 + ∑ k, x k) (Ideal.ofBits .f32 0x44400000#32)

/-- One-pass variance: the mean of the squares minus the square of the mean. -/
def varK (x : Fin 768 → EReal) : EReal :=
  Ideal.div (∑ k, x k * x k) (Ideal.ofBits .f32 0x44400000#32) - meanK x * meanK x

/-- Two-pass variance: the mean of the squared deviations from the mean. -/
def varR (x : Fin 768 → EReal) : EReal :=
  Ideal.div (Ideal.ofBits .f32 0x00000000#32 + ∑ k, (x k - meanR x) * (x k - meanR x)) (Ideal.ofBits .f32 0x44400000#32)

/-- The normalized, scaled and shifted entry `h` of the row, from a mean `μ` and a variance `v`. -/
def normAt (μ v : EReal) (xh g b : EReal) : EReal :=
  ((xh - μ) * Ideal.rsqrt (v + Ideal.ofBits .f32 0x2B8CBCCC#32)) * g + b

theorem meanR_eq_meanK (x : Fin 768 → EReal) : meanR x = meanK x := by
  unfold meanR meanK
  rw [Ideal.ofBits_zero_f32, zero_add]

/-! ## The law -/

/-- Over the reals: the mean of the squared deviations is the mean of the squares minus the squared mean. -/
theorem real_var (r : Fin 768 → ℝ) :
    (∑ k, (r k - (∑ k, r k) * (1 / 768)) * (r k - (∑ k, r k) * (1 / 768))) * (1 / 768)
      = (∑ k, r k * r k) * (1 / 768) - ((∑ k, r k) * (1 / 768)) * ((∑ k, r k) * (1 / 768)) := by
  have hk : ∀ k, (r k - (∑ k, r k) * (1 / 768)) * (r k - (∑ k, r k) * (1 / 768))
      = r k * r k - 2 * ((∑ k, r k) * (1 / 768)) * r k + ((∑ k, r k) * (1 / 768)) * ((∑ k, r k) * (1 / 768)) :=
    fun k => by ring
  simp only [hk]
  rw [Finset.sum_add_distrib, Finset.sum_sub_distrib, ← Finset.mul_sum, Finset.sum_const, Finset.card_univ,
    Fintype.card_fin, nsmul_eq_mul]
  push_cast
  ring

/-- For a row of reals the two variances are the same extended real. -/
theorem varR_eq_varK (x : Fin 768 → EReal) (hx : ∀ k, ∃ r : ℝ, x k = (r : EReal)) : varR x = varK x := by
  choose r hr using hx
  have hx' : x = fun k => ((r k : ℝ) : EReal) := funext hr
  subst hx'
  unfold varR varK
  rw [meanR_eq_meanK]
  unfold meanK
  rw [Ideal.ofBits_zero_f32, zero_add, ofBits_768]
  simp only [Ideal.div_coe (by norm_num : (768 : ℝ) ≠ 0)]
  have hS : (∑ k, ((r k : ℝ) : EReal)) = ((∑ k, r k : ℝ) : EReal) := (coe_sum _ _).symm
  rw [hS]
  simp only [← EReal.coe_mul, ← EReal.coe_sub]
  rw [← coe_sum, ← coe_sum]
  simp only [← EReal.coe_mul, ← EReal.coe_sub]
  exact congrArg _ (real_var r)

/-- THE LAW: on a row of reals the reference's normalized entry is the kernel's. -/
theorem normAt_two_pass_eq_one_pass (x : Fin 768 → EReal) (hx : ∀ k, ∃ r : ℝ, x k = (r : EReal))
    (xh g b : EReal) : normAt (meanR x) (varR x) xh g b = normAt (meanK x) (varK x) xh g b := by
  rw [meanR_eq_meanK, varR_eq_varK x hx]

end Cert.RowNorm

end
-- ==== Proof.Spec.lean ====
/-
  What both programs compute, as functions of the four argument arrays.

  state : [64, 64, 768],  mapping : [64, 64, 512],  gamma, beta : [768].
  expand[n, l, h] = ∑ₑ mapping[n, e, l] · state[n, e, h]      (mappingᵀ · state, batched over n)
  out[n, l, h]    = LayerNorm over h of the row expand[n, l, ·], scaled by gamma[h], shifted by beta[h].
  The kernel takes the row's variance in one pass, the reference in two (RowLaw); the two whole-array functions
  are `outK` and `outR`, equal when state and mapping hold real numbers, because every entry of the product is
  then a real.
-/
import proofs.«127466_j84473416778477_2_alg».proof.Proof.RowLaw
import Idealize.ShloMosaic.Lib.ValueIdx

noncomputable section

namespace Cert.ExpandNorm

open Idealize.ShloMosaic Idealize.ShloMosaic.ValueIdx Cert.RowNorm

/-- Entry (n, l, h) of the batched product: the sum over the 64 nodes `e` of mapping[n, e, l] · state[n, e, h].
    The batch extent is a parameter: the kernel meets it on a block of 4 batches, the reference on all 64. -/
def expand {B : Nat} (st : (⟨3, ![B, 64, 768]⟩ : Shape).Idx → EReal) (mp : (⟨3, ![B, 64, 512]⟩ : Shape).Idx → EReal)
    (n : Fin B) (l : Fin 512) (h : Fin 768) : EReal :=
  ∑ k : Fin 64, mp (ix3 n k l) * st (ix3 n k h)

/-- An entry of the product of real arrays is a real. -/
theorem expand_real {B : Nat} (st : (⟨3, ![B, 64, 768]⟩ : Shape).Idx → EReal) (mp : (⟨3, ![B, 64, 512]⟩ : Shape).Idx → EReal)
    (hst : ∀ i, ∃ r : ℝ, st i = (r : EReal)) (hmp : ∀ i, ∃ r : ℝ, mp i = (r : EReal))
    (n : Fin B) (l : Fin 512) (h : Fin 768) : ∃ r : ℝ, expand st mp n l h = (r : EReal) :=
  sum_mul_real _ _ (fun k => hmp (ix3 n k l)) (fun k => hst (ix3 n k h))

/-- The kernel's entry (n, l, h): the row expand[n, l, ·] normalized with the one-pass variance. -/
def entryK {B : Nat} (st : (⟨3, ![B, 64, 768]⟩ : Shape).Idx → EReal) (mp : (⟨3, ![B, 64, 512]⟩ : Shape).Idx → EReal)
    (ga be : (⟨1, ![768]⟩ : Shape).Idx → EReal) (n : Fin B) (l : Fin 512) (h : Fin 768) : EReal :=
  normAt (meanK (expand st mp n l)) (varK (expand st mp n l)) (expand st mp n l h) (ga (ix1 h)) (be (ix1 h))

/-- The reference's entry (n, l, h): the same row normalized with the two-pass variance. -/
def entryR {B : Nat} (st : (⟨3, ![B, 64, 768]⟩ : Shape).Idx → EReal) (mp : (⟨3, ![B, 64, 512]⟩ : Shape).Idx → EReal)
    (ga be : (⟨1, ![768]⟩ : Shape).Idx → EReal) (n : Fin B) (l : Fin 512) (h : Fin 768) : EReal :=
  normAt (meanR (expand st mp n l)) (varR (expand st mp n l)) (expand st mp n l h) (ga (ix1 h)) (be (ix1 h))

/-- The kernel's result array as one function of the argument arrays. -/
def outK (st : (⟨3, ![64, 64, 768]⟩ : Shape).Idx → EReal) (mp : (⟨3, ![64, 64, 512]⟩ : Shape).Idx → EReal)
    (ga be : (⟨1, ![768]⟩ : Shape).Idx → EReal) : (⟨3, ![64, 512, 768]⟩ : Shape).Idx → EReal :=
  fun i => entryK st mp ga be (i 0) (i 1) (i 2)

/-- The reference's result array as one function of the argument arrays. -/
def outR (st : (⟨3, ![64, 64, 768]⟩ : Shape).Idx → EReal) (mp : (⟨3, ![64, 64, 512]⟩ : Shape).Idx → EReal)
    (ga be : (⟨1, ![768]⟩ : Shape).Idx → EReal) : (⟨3, ![64, 512, 768]⟩ : Shape).Idx → EReal :=
  fun i => entryR st mp ga be (i 0) (i 1) (i 2)

/-- On real state and mapping the two result arrays are one array: every row of the product is a row of reals,
    on which the two variances agree. -/
theorem outR_eq_outK (st : (⟨3, ![64, 64, 768]⟩ : Shape).Idx → EReal) (mp : (⟨3, ![64, 64, 512]⟩ : Shape).Idx → EReal)
    (ga be : (⟨1, ![768]⟩ : Shape).Idx → EReal)
    (hst : ∀ i, ∃ r : ℝ, st i = (r : EReal)) (hmp : ∀ i, ∃ r : ℝ, mp i = (r : EReal)) :
    outR st mp ga be = outK st mp ga be := by
  funext i
  unfold outR outK entryR entryK
  exact normAt_two_pass_eq_one_pass _ (fun k => expand_real st mp hst hmp (i 0) (i 1) k) _ _ _

end Cert.ExpandNorm

end
-- ==== Proof.RefValue.lean ====
/-
  The reference's result array is `outR` of its arguments.

  The reference's operations, read one at a time at an index (the generated stage lemmas), are followed at
  explicit coordinates (n, l, h): the batched product's entry is `expand`; the sum over h started from the float
  zero and divided by 768 is the row's mean; the deviations from it, squared, summed and divided by 768 are the
  two-pass variance; the entry is the deviation times (variance + ε)^(-1/2), times gamma[h], plus beta[h].
  The keepdims arrays [64, 512, 1] are read at (n, l, 0).
-/
import proofs.«127466_j84473416778477_2_alg».proof.Proof.Gen.ReferenceIdeal.Read
import proofs.«127466_j84473416778477_2_alg».proof.Proof.Spec

noncomputable section

namespace Cert.ReferenceIdeal.RefValue

open Idealize.ShloMosaic Idealize.ShloMosaic.ValueIdx Cert.ReferenceIdeal Cert.ReferenceIdeal.Read
open Cert.RowNorm Cert.ExpandNorm

variable (x0 : (⟨S64x64x768, .f32⟩ : BufTy).Contents (Elt Ideal)) (x1 : (⟨S64x64x512, .f32⟩ : BufTy).Contents (Elt Ideal))
variable (x2 x3 : (⟨S768, .f32⟩ : BufTy).Contents (Elt Ideal))

/-- The batched product at (n, l, h): mapping is the left operand, read at (n, e, l); state the right, at (n, e, h). -/
theorem product_at (n : Fin 64) (l : Fin 512) (h : Fin 768) :
    val_main_v0 (F := Ideal) x0 x1 (ix3 n l h) = expand x0 x1 n l h := by
  rw [val_main_v0_apply]
  unfold expand
  refine Finset.sum_congr rfl fun k _ => ?_
  have el : lidx_main_v0 (ix3 n l h) k = ix3 n k l :=
    funext fun a => Fin.ext (by match a with | ⟨0, _⟩ => rfl | ⟨1, _⟩ => rfl | ⟨2, _⟩ => rfl)
  have er : ridx_main_v0 (ix3 n l h) k = ix3 n k h :=
    funext fun a => Fin.ext (by match a with | ⟨0, _⟩ => rfl | ⟨1, _⟩ => rfl | ⟨2, _⟩ => rfl)
  rw [el, er]

/-- The row's sum at (n, l): the float zero plus the sum of the product's row. -/
theorem row_sum_at (n : Fin 64) (l : Fin 512) :
    val_main_v1 (F := Ideal) x0 x1 (ix2 n l) = Ideal.ofBits .f32 0x00000000#32 + ∑ k : Fin 768, expand x0 x1 n l k := by
  rw [val_main_v1_apply, val_main_cst_apply]
  refine congrArg (_ + ·) (Finset.sum_congr rfl fun k _ => ?_)
  have e : idx_main_v1 (ix2 n l) k = ix3 n l k :=
    funext fun a => Fin.ext (by match a with | ⟨0, _⟩ => rfl | ⟨1, _⟩ => rfl | ⟨2, _⟩ => rfl)
  rw [e, product_at]

/-- The row's mean, kept as [64, 512, 1], at (n, l, 0). -/
theorem mean_at (n : Fin 64) (l : Fin 512) :
    val_main_v4 (F := Ideal) x0 x1 (ix3 n l (0 : Fin 1)) = meanR (expand x0 x1 n l) := by
  rw [val_main_v4_apply, val_main_v2_apply, val_main_v3_apply, val_main_cst_0_apply]
  have e : idx_main_v2 (ix3 n l (0 : Fin 1)) = ix2 n l :=
    funext fun a => Fin.ext (by match a with | ⟨0, _⟩ => rfl | ⟨1, _⟩ => rfl)
  rw [e, row_sum_at]
  rfl

/-- The deviation from the mean at (n, l, h). -/
theorem deviation_at (n : Fin 64) (l : Fin 512) (h : Fin 768) :
    val_main_v6 (F := Ideal) x0 x1 (ix3 n l h) = expand x0 x1 n l h - meanR (expand x0 x1 n l) := by
  rw [val_main_v6_apply, val_main_v5_apply, product_at]
  have e : idx_main_v5 (ix3 n l h) = ix3 n l (0 : Fin 1) :=
    funext fun a => Fin.ext (by match a with | ⟨0, _⟩ => rfl | ⟨1, _⟩ => rfl | ⟨2, _⟩ => rfl)
  rw [e, mean_at]
  rfl

/-- The sum of the squared deviations at (n, l). -/
theorem sq_sum_at (n : Fin 64) (l : Fin 512) :
    val_main_v8 (F := Ideal) x0 x1 (ix2 n l) = Ideal.ofBits .f32 0x00000000#32
      + ∑ k : Fin 768, (expand x0 x1 n l k - meanR (expand x0 x1 n l)) * (expand x0 x1 n l k - meanR (expand x0 x1 n l)) := by
  rw [val_main_v8_apply, val_main_cst_1_apply]
  refine congrArg (_ + ·) (Finset.sum_congr rfl fun k _ => ?_)
  have e : idx_main_v8 (ix2 n l) k = ix3 n l k :=
    funext fun a => Fin.ext (by match a with | ⟨0, _⟩ => rfl | ⟨1, _⟩ => rfl | ⟨2, _⟩ => rfl)
  rw [e, val_main_v7_apply, deviation_at]
  rfl

/-- The two-pass variance, kept as [64, 512, 1], at (n, l, 0). -/
theorem variance_at (n : Fin 64) (l : Fin 512) :
    val_main_v11 (F := Ideal) x0 x1 (ix3 n l (0 : Fin 1)) = varR (expand x0 x1 n l) := by
  rw [val_main_v11_apply, val_main_v9_apply, val_main_v10_apply, val_main_cst_2_apply]
  have e : idx_main_v9 (ix3 n l (0 : Fin 1)) = ix2 n l :=
    funext fun a => Fin.ext (by match a with | ⟨0, _⟩ => rfl | ⟨1, _⟩ => rfl)
  rw [e, sq_sum_at]
  rfl

/-- The result at (n, l, h) is the reference's entry. -/
theorem result_at (n : Fin 64) (l : Fin 512) (h : Fin 768) :
    val_main_v24 (F := Ideal) x0 x1 x2 x3 (ix3 n l h) = entryR x0 x1 x2 x3 n l h := by
  rw [val_main_v24_apply, val_main_v21_apply, val_main_v23_apply, val_main_v22_apply, val_main_v20_apply,
    val_main_v19_apply, val_main_v18_apply, val_main_v13_apply, val_main_v12_apply, val_main_v17_apply,
    val_main_v16_apply, val_main_v15_apply, val_main_v14_apply, val_main_cst_3_apply, product_at]
  have e12 : idx_main_v12 (ix3 n l h) = ix3 n l (0 : Fin 1) :=
    funext fun a => Fin.ext (by match a with | ⟨0, _⟩ => rfl | ⟨1, _⟩ => rfl | ⟨2, _⟩ => rfl)
  have e17 : idx_main_v17 (ix3 n l h) = ix3 n l (0 : Fin 1) :=
    funext fun a => Fin.ext (by match a with | ⟨0, _⟩ => rfl | ⟨1, _⟩ => rfl | ⟨2, _⟩ => rfl)
  have e19 : idx_main_v19 (idx_main_v20 (ix3 n l h)) = ix1 h :=
    funext fun a => Fin.ext (by match a with | ⟨0, _⟩ => rfl)
  have e22 : idx_main_v22 (idx_main_v23 (ix3 n l h)) = ix1 h :=
    funext fun a => Fin.ext (by match a with | ⟨0, _⟩ => rfl)
  rw [e12, e17, e19, e22, mean_at, variance_at]
  rfl

/-- THE REFERENCE'S VALUE: its last stage is `outR` of the four argument arrays. -/
theorem result_eq_outR : val_main_v24 (F := Ideal) x0 x1 x2 x3 = outR x0 x1 x2 x3 := by
  funext i
  obtain ⟨n, l, h, rfl⟩ : ∃ (n : Fin 64) (l : Fin 512) (h : Fin 768), i = ix3 n l h := ⟨i 0, i 1, i 2, eq_ix3 i⟩
  rw [result_at]
  rfl

end Cert.ReferenceIdeal.RefValue

end
-- ==== Proof.KernelBody.lean ====
/-
  The kernel body's stored value, read at an index (p, q, r) of the [4, 512, 768] block, is the kernel's entry
  `entryK` of the four loaded blocks: state [4, 64, 768], mapping [4, 64, 512], gamma and beta [768].

  The body multiplies mappingᵀ by state batch by batch into a zero accumulator (the change of float format before it
  is the identity on exact values), sums each row of the product and of its square over the last axis, keeps the two
  sums as [4, 512, 1] columns, divides both by 768, subtracts the squared mean from the mean square, adds ε, takes
  the inverse square root, and broadcasts mean and inverse deviation back over the row; gamma and beta are laid
  as [1, 1, 768] and broadcast over the block. Each operation that is not pointwise is read at explicit
  coordinates by one lemma below; the pointwise ones are read by definition.
-/
import proofs.«127466_j84473416778477_2_alg».proof.Proof.Gen.KernelIdeal.Skeleton
import proofs.«127466_j84473416778477_2_alg».proof.Proof.Spec
import Idealize.ShloMosaic.Lib.ValueIdx
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen
open Cert.RowNorm Cert.ExpandNorm

/-! ## The matrix product at an index -/

theorem lhs_batch (i : S4x512x768.Idx) (c : dot_S4x64x512_S4x64x768_S4x512x768_1_1_2_2_0_0.contr.Idx) :
    (dot_S4x64x512_S4x64x768_S4x512x768_1_1_2_2_0_0.lhsIdx i c 0).val = (i 0).val := by
  unfold DotDims.lhsIdx
  rw [dif_pos (show (0 : Fin S4x64x512.rank) ∈ dot_S4x64x512_S4x64x768_S4x512x768_1_1_2_2_0_0.lhsBatch by decide)]
  rfl
theorem lhs_contr (i : S4x512x768.Idx) (c : dot_S4x64x512_S4x64x768_S4x512x768_1_1_2_2_0_0.contr.Idx) :
    (dot_S4x64x512_S4x64x768_S4x512x768_1_1_2_2_0_0.lhsIdx i c 1).val = (c ⟨0, by decide⟩).val :=
  dot_S4x64x512_S4x64x768_S4x512x768_1_1_2_2_0_0.lhsIdx_val_of_single rfl i c
theorem lhs_free (i : S4x512x768.Idx) (c : dot_S4x64x512_S4x64x768_S4x512x768_1_1_2_2_0_0.contr.Idx) :
    (dot_S4x64x512_S4x64x768_S4x512x768_1_1_2_2_0_0.lhsIdx i c 2).val = (i 1).val := by
  unfold DotDims.lhsIdx
  rw [dif_neg (show ¬(2 : Fin S4x64x512.rank) ∈ dot_S4x64x512_S4x64x768_S4x512x768_1_1_2_2_0_0.lhsBatch by decide),
    dif_pos (show (2 : Fin S4x64x512.rank) ∈ dot_S4x64x512_S4x64x768_S4x512x768_1_1_2_2_0_0.lhsNonContracting by decide)]
  rfl
theorem rhs_batch (i : S4x512x768.Idx) (c : dot_S4x64x512_S4x64x768_S4x512x768_1_1_2_2_0_0.contr.Idx) :
    (dot_S4x64x512_S4x64x768_S4x512x768_1_1_2_2_0_0.rhsIdx i c 0).val = (i 0).val := by
  unfold DotDims.rhsIdx
  rw [dif_pos (show (0 : Fin S4x64x768.rank) ∈ dot_S4x64x512_S4x64x768_S4x512x768_1_1_2_2_0_0.rhsBatch by decide)]
  rfl
theorem rhs_contr (i : S4x512x768.Idx) (c : dot_S4x64x512_S4x64x768_S4x512x768_1_1_2_2_0_0.contr.Idx) :
    (dot_S4x64x512_S4x64x768_S4x512x768_1_1_2_2_0_0.rhsIdx i c 1).val = (c ⟨0, by decide⟩).val :=
  dot_S4x64x512_S4x64x768_S4x512x768_1_1_2_2_0_0.rhsIdx_val_of_single rfl i c
theorem rhs_free (i : S4x512x768.Idx) (c : dot_S4x64x512_S4x64x768_S4x512x768_1_1_2_2_0_0.contr.Idx) :
    (dot_S4x64x512_S4x64x768_S4x512x768_1_1_2_2_0_0.rhsIdx i c 2).val = (i 2).val := by
  unfold DotDims.rhsIdx
  rw [dif_neg (show ¬(2 : Fin S4x64x768.rank) ∈ dot_S4x64x512_S4x64x768_S4x512x768_1_1_2_2_0_0.rhsBatch by decide),
    dif_pos (show (2 : Fin S4x64x768.rank) ∈ dot_S4x64x512_S4x64x768_S4x512x768_1_1_2_2_0_0.rhsNonContracting by decide)]
  rfl

/-- The product into the zero accumulator at (p, q, r): the sum over the 64 contracted coordinates `k` of the left
    operand at (p, k, q) times the right at (p, k, r). -/
theorem matmul_at (a : FVec Ideal S4x64x512 .bf16) (b : FVec Ideal S4x64x768 .bf16) (p : Fin 4) (q : Fin 512) (r : Fin 768) :
    matmul dot_S4x64x512_S4x64x768_S4x512x768_1_1_2_2_0_0 none a b (constant (F := Ideal) S4x512x768 .f32 0x00000000#32) (ix3 p q r)
      = ∑ k : Fin 64, a (ix3 p k q) * b (ix3 p k r) := by
  simp only [matmul]
  rw [Ideal.matmul_constant_zero_apply, ← Equiv.sum_comp (ValueIdx.contrEquiv1 dot_S4x64x512_S4x64x768_S4x512x768_1_1_2_2_0_0 64 rfl rfl).symm]
  refine Finset.sum_congr rfl fun k _ => ?_
  have hk := ValueIdx.contrEquiv1_symm_val dot_S4x64x512_S4x64x768_S4x512x768_1_1_2_2_0_0 64 rfl rfl k
  have el : dot_S4x64x512_S4x64x768_S4x512x768_1_1_2_2_0_0.lhsIdx (ix3 p q r) ((ValueIdx.contrEquiv1 dot_S4x64x512_S4x64x768_S4x512x768_1_1_2_2_0_0 64 rfl rfl).symm k) = ix3 p k q := funext fun a => Fin.ext (by
    match a with
    | ⟨0, _⟩ => exact lhs_batch _ _
    | ⟨1, _⟩ => exact (lhs_contr _ _).trans hk
    | ⟨2, _⟩ => exact lhs_free _ _)
  have er : dot_S4x64x512_S4x64x768_S4x512x768_1_1_2_2_0_0.rhsIdx (ix3 p q r) ((ValueIdx.contrEquiv1 dot_S4x64x512_S4x64x768_S4x512x768_1_1_2_2_0_0 64 rfl rfl).symm k) = ix3 p k r := funext fun a => Fin.ext (by
    match a with
    | ⟨0, _⟩ => exact rhs_batch _ _
    | ⟨1, _⟩ => exact (rhs_contr _ _).trans hk
    | ⟨2, _⟩ => exact rhs_free _ _)
  rw [el, er]

/-! ## The row sum, the keepdims column and the broadcasts, at coordinates -/

/-- The sum over the last axis at (p, q) is the sum over `k` of the operand at (p, q, k). -/
theorem lane_sum_at (v : FVec Ideal S4x512x768 .f32) (hφ : FKind.Formats .f32)
    (hacc : (0x00000000#32 : BitVec FTy.f32.bits) = FKind.add.neutral .f32 hφ) (p : Fin 4) (q : Fin 512) :
    multiReduction .add [2] S4x512 v 0x00000000#32 reduces_S4x512x768_S4x512 hφ hacc (ix2 p q)
      = ∑ k : Fin 768, v (ix3 p q k) := by
  refine (Ideal.multiReduction_add_single v 0x00000000#32 reduces_S4x512x768_S4x512 hφ hacc (ix2 p q)).trans ?_
  refine Finset.sum_congr rfl fun k _ => congrArg v ?_
  exact funext fun a => Fin.ext (by match a with | ⟨0, _⟩ => rfl | ⟨1, _⟩ => rfl | ⟨2, _⟩ => rfl)

/-- A [4, 512] array kept as a [4, 512, 1] column, at (p, q, 0), is the array at (p, q). -/
theorem column_at {α : Type} (c : S4x512.Idx → α) (p : Fin 4) (q : Fin 512) :
    shapeCast S4x512x1 c shapeCasts_S4x512_S4x512x1 (ix3 p q (0 : Fin 1)) = c (ix2 p q) :=
  shapeCast_apply c shapeCasts_S4x512_S4x512x1 (ix3 p q (0 : Fin 1)) (ix2 p q) (by
    rw [Shape.rowMajor_val_two, Shape.rowMajor_val_three]
    show p.val * 512 + q.val = (p.val * 512 + q.val) * 1 + 0
    omega)

/-- A [4, 512, 1] column broadcast over the row, at (p, q, r), is the column at (p, q, 0). -/
theorem over_row_at {α : Type} (c : S4x512x1.Idx → α) (p : Fin 4) (q : Fin 512) (r : Fin 768) :
    broadcastTo S4x512x768 c broadcasts_S4x512x1_S4x512x768 (ix3 p q r) = c (ix3 p q (0 : Fin 1)) :=
  broadcastTo_apply c broadcasts_S4x512x1_S4x512x768 (ix3 p q r) (ix3 p q (0 : Fin 1)) (fun a => by
    match a with
    | ⟨0, _⟩ => show p.val = if (4 : Nat) = 1 then 0 else p.val; rw [if_neg (by decide)]
    | ⟨1, _⟩ => show q.val = if (512 : Nat) = 1 then 0 else q.val; rw [if_neg (by decide)]
    | ⟨2, _⟩ => show 0 = if (1 : Nat) = 1 then 0 else r.val; rw [if_pos rfl])

/-- A [768] vector laid as [1, 1, 768], at (0, 0, r), is the vector at r. -/
theorem laid_at {α : Type} (c : S768.Idx → α) (r : Fin 768) :
    shapeCast S1x1x768 c shapeCasts_S768_S1x1x768 (ix3 (0 : Fin 1) (0 : Fin 1) r) = c (ix1 r) :=
  shapeCast_apply c shapeCasts_S768_S1x1x768 (ix3 (0 : Fin 1) (0 : Fin 1) r) (ix1 r) (by
    rw [Shape.rowMajor_val_one, Shape.rowMajor_val_three]
    show r.val = (0 * 1 + 0) * 768 + r.val
    omega)

/-- A [1, 1, 768] array broadcast over the block, at (p, q, r), is the array at (0, 0, r). -/
theorem over_block_at {α : Type} (c : S1x1x768.Idx → α) (p : Fin 4) (q : Fin 512) (r : Fin 768) :
    broadcastTo S4x512x768 c broadcasts_S1x1x768_S4x512x768 (ix3 p q r) = c (ix3 (0 : Fin 1) (0 : Fin 1) r) :=
  broadcastTo_apply c broadcasts_S1x1x768_S4x512x768 (ix3 p q r) (ix3 (0 : Fin 1) (0 : Fin 1) r) (fun a => by
    match a with
    | ⟨0, _⟩ => show 0 = if (1 : Nat) = 1 then 0 else p.val; rw [if_pos rfl]
    | ⟨1, _⟩ => show 0 = if (1 : Nat) = 1 then 0 else q.val; rw [if_pos rfl]
    | ⟨2, _⟩ => show r.val = if (768 : Nat) = 1 then 0 else r.val; rw [if_neg (by decide)])

/-- The inverse square root of a vector is taken entry by entry. -/
theorem rsqrt_at {s : Shape} (v : FVec Ideal s .f32) (i : s.Idx) : rsqrt v i = Ideal.rsqrt (v i) := rfl

/-! ## The stored value -/

/-- THE BODY'S VALUE at (p, q, r): the kernel's entry of the loaded blocks. -/
theorem payload_at (v0 : Vec Ideal S4x64x768 .f32) (v2 : Vec Ideal S4x64x512 .f32) (v23 v24 : Vec Ideal S768 .f32)
    (p : Fin 4) (q : Fin 512) (r : Fin 768) :
    k0_pay1 (F := Ideal) v0 v2 v23 v24 (ix3 p q r) = entryK v0 v2 v23 v24 p q r := by
  unfold k0_pay1
  dsimp only
  simp only [addf_apply, mulf_apply, subf_apply, divf_apply, rsqrt_at, over_row_at, over_block_at, column_at, laid_at,
    broadcast_apply, matmul_at, truncf_apply]
  erw [lane_sum_at, lane_sum_at]
  simp only [mulf_apply, matmul_at, truncf_apply]
  rfl

end Cert.KernelIdeal.BodyValue

end
-- ==== Proof.KernelArray.lean ====
/-
  The kernel's result array after the run is `outK` of the argument arrays.

  The grid has 16 points; point t stages batches 4t … 4t+3 of state and of mapping, all of gamma and of beta, and
  writes back batches 4t … 4t+3 of the result: the block index of the three batched windows is (t, 0, 0), that of
  gamma and beta is 0. So the value the body stores at (p, q, r) of its block — the kernel's entry of the loaded
  blocks — is the kernel's entry of the whole arrays at (4t + p, q, r): the row of the product it normalizes reads
  state and mapping at batch 4t + p only. The 16 blocks tile the result array (batch n lies in the block of point
  n / 4), so the array ends at `outK` everywhere.
-/
import proofs.«127466_j84473416778477_2_alg».proof.Proof.Gen.KernelIdeal.Value
import proofs.«127466_j84473416778477_2_alg».proof.Proof.KernelBody

set_option maxRecDepth 16384

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.ExpandNorm Cert.KernelIdeal.BodyValue
open Idealize.ShloMosaic.Pipeline (Dat)

/-! ## A block's entry is the whole arrays' entry -/

/-- If four blocks hold batches 4T … 4T+3 of state and mapping and all of gamma and beta, the body's value at an
    index `y` of the block is `outK` of the whole arrays at the index `i` with the batch coordinate shifted by 4T. -/
theorem block_entry (st : (⟨3, ![64, 64, 768]⟩ : Shape).Idx → EReal) (mp : (⟨3, ![64, 64, 512]⟩ : Shape).Idx → EReal)
    (ga be : (⟨1, ![768]⟩ : Shape).Idx → EReal)
    (b0 : Vec Ideal S4x64x768 .f32) (b1 : Vec Ideal S4x64x512 .f32) (b2 b3 : Vec Ideal S768 .f32)
    (T : Nat) (y : S4x512x768.Idx) (i : S64x512x768.Idx)
    (hi0 : (i 0).val = T * 4 + (y 0).val) (hi1 : (i 1).val = (y 1).val) (hi2 : (i 2).val = (y 2).val)
    (h0 : ∀ (p : Fin 4) (k : Fin 64) (h : Fin 768) (n : Fin 64), n.val = T * 4 + p.val → b0 (ix3 p k h) = st (ix3 n k h))
    (h1 : ∀ (p : Fin 4) (k : Fin 64) (l : Fin 512) (n : Fin 64), n.val = T * 4 + p.val → b1 (ix3 p k l) = mp (ix3 n k l))
    (h2 : ∀ r : Fin 768, b2 (ix1 r) = ga (ix1 r)) (h3 : ∀ r : Fin 768, b3 (ix1 r) = be (ix1 r)) :
    k0_pay1 (F := Ideal) b0 b1 b2 b3 y = outK st mp ga be i := by
  obtain ⟨p, q, r, rfl⟩ : ∃ (p : Fin 4) (q : Fin 512) (r : Fin 768), y = ix3 p q r := ⟨y 0, y 1, y 2, eq_ix3 y⟩
  obtain ⟨n, l, h, rfl⟩ : ∃ (n : Fin 64) (l : Fin 512) (h : Fin 768), i = ix3 n l h := ⟨i 0, i 1, i 2, eq_ix3 i⟩
  have hn : n.val = T * 4 + p.val := hi0
  obtain rfl : l = q := Fin.ext hi1
  obtain rfl : h = r := Fin.ext hi2
  rw [payload_at]
  have hX : expand b0 b1 p l = expand st mp n l := funext fun h' => by
    unfold expand
    exact Finset.sum_congr rfl fun k _ => by rw [h0 p k h' n hn, h1 p k l n hn]
  show entryK b0 b1 b2 b3 p l h = entryK st mp ga be n l h
  unfold entryK
  rw [hX, h2, h3]

/-! ## The blocks of the result array -/

variable (m : (ℓ : Loc nD τ sig) → Buf (Elt Ideal) ℓ) (ρ : Dev nD → PrngReg)

theorem zero3 : (![0, 0, 0] : Fin 3 → Nat) = fun _ => 0 := funext fun a => by fin_cases a <;> rfl
theorem zero1 : (![0] : Fin 1 → Nat) = fun _ => 0 := funext fun a => by fin_cases a <;> rfl

/-- The block indices over the grid, decided at its 16 points: the three batched windows are at block (t, 0, 0), gamma
    and beta at block 0. -/
theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 1) = 0 ∧ win0_3.index t (0 : Fin 1) = 0
    ∧ win0_4.index t (0 : Fin 3) = t.val ∧ win0_4.index t (1 : Fin 3) = 0 ∧ win0_4.index t (2 : Fin 3) = 0 :=
  (by decide +kernel : ∀ t : Fin grid0.N, _)

/-- Every batch is some point's: point n / 4 has block index n / 4 on the batch axis. -/
theorem point_of_batch : ∀ b : Fin 16, ∃ t : Fin cfg0.N, win0_4.index t (0 : Fin 3) = b.val :=
  (by decide +kernel : ∀ b : Fin 16, ∃ t : Fin grid0.N, win0_4.index t (0 : Fin 3) = b.val)

/-- The kernel's result as a function of the arrays the region finds. -/
abbrev result (c : Dev nD) : S64x512x768.Idx → EReal :=
  outK (V m c main_arg0) (V m c main_arg1) (V m c main_arg2) (V m c main_arg3)

/-- WHAT POINT `t` WRITES BACK is block `t` of `result`. -/
theorem flushed_eq (c : Dev nD) (t : Fin cfg0.N) :
    (dats m 0 c).flushed 4 t = ((cfg0.win 4).blk t).view.read (Elt Ideal) (result m c) := by
  rw [flushed4]
  unfold out0_4
  rw [View.canon_unit_zero zero3]
  simp only [View.ld_unit_zero (S := S4x64x768) zero3, View.ld_unit_zero (S := S4x64x512) zero3, View.ld_unit_zero (S := S768) zero1]
  obtain ⟨a00, a01, a02, a10, a11, a12, a2, a3, a40, a41, a42⟩ := block_indices t
  funext j
  show k0_pay1 (F := Ideal) (iblk m c 0 t) (iblk m c 1 t) (iblk m c 2 t) (iblk m c 3 t) j
    = outK (V m c main_arg0) (V m c main_arg1) (V m c main_arg2) (V m c main_arg3) (((cfg0.win 4).blk t).view.emb j)
  refine block_entry (V m c main_arg0) (V m c main_arg1) (V m c main_arg2) (V m c main_arg3)
    (iblk m c 0 t) (iblk m c 1 t) (iblk m c 2 t) (iblk m c 3 t) t.val j (((cfg0.win 4).blk t).view.emb j) ?_ ?_ ?_ ?_ ?_ ?_ ?_
  · show win0_4.index t (0 : Fin 3) * 4 + 1 * (j 0).val = t.val * 4 + (j 0).val
    omega
  · show win0_4.index t (1 : Fin 3) * 512 + 1 * (j 1).val = (j 1).val
    omega
  · show win0_4.index t (2 : Fin 3) * 768 + 1 * (j 2).val = (j 2).val
    omega
  · intro p k h n hn
    show V m c main_arg0 (((cfg0.win 0).blk t).view.emb (ix3 p k h)) = V m c main_arg0 (ix3 n k h)
    refine congrArg _ (funext fun a => Fin.ext ?_)
    match a with
    | ⟨0, _⟩ => show win0_0.index t (0 : Fin 3) * 4 + 1 * p.val = n.val; omega
    | ⟨1, _⟩ => show win0_0.index t (1 : Fin 3) * 64 + 1 * k.val = k.val; omega
    | ⟨2, _⟩ => show win0_0.index t (2 : Fin 3) * 768 + 1 * h.val = h.val; omega
  · intro p k l n hn
    show V m c main_arg1 (((cfg0.win 1).blk t).view.emb (ix3 p k l)) = V m c main_arg1 (ix3 n k l)
    refine congrArg _ (funext fun a => Fin.ext ?_)
    match a with
    | ⟨0, _⟩ => show win0_1.index t (0 : Fin 3) * 4 + 1 * p.val = n.val; omega
    | ⟨1, _⟩ => show win0_1.index t (1 : Fin 3) * 64 + 1 * k.val = k.val; omega
    | ⟨2, _⟩ => show win0_1.index t (2 : Fin 3) * 512 + 1 * l.val = l.val; omega
  · intro r
    show V m c main_arg2 (((cfg0.win 2).blk t).view.emb (ix1 r)) = V m c main_arg2 (ix1 r)
    refine congrArg _ (funext fun a => Fin.ext ?_)
    match a with
    | ⟨0, _⟩ => show win0_2.index t (0 : Fin 1) * 768 + 1 * r.val = r.val; omega
  · intro r
    show V m c main_arg3 (((cfg0.win 3).blk t).view.emb (ix1 r)) = V m c main_arg3 (ix1 r)
    refine congrArg _ (funext fun a => Fin.ext ?_)
    match a with
    | ⟨0, _⟩ => show win0_3.index t (0 : Fin 1) * 768 + 1 * r.val = r.val; omega

/-- An index of the array is in point `t`'s block iff each coordinate is in the block's range on its axis. -/
theorem mem_block (t : Fin cfg0.N) (i : S64x512x768.Idx) :
    i ∈ ((cfg0.win 4).blk t).view.set ↔ ∀ a : Fin 3, win0_4.index t a * S4x512x768.size a ≤ (i a).val ∧ (i a).val < win0_4.index t a * S4x512x768.size a + S4x512x768.size a := by
  show i ∈ ((View.whole main_v0).slice (win0_4.rect t)).set ↔ _
  rw [View.set_slice_whole, Rect.mem_set_unit]
  exact Iff.rfl

/-- The 16 blocks cover the result array: batch n is in the block of point n / 4. -/
theorem covered (i : S64x512x768.Idx) : ∃ t : Fin cfg0.N, (cfg0.win 4).flush t = true ∧ i ∈ ((cfg0.win 4).blk t).view.set := by
  have hi0 : (i 0).val < 64 := (i 0).isLt
  have hi1 : (i 1).val < 512 := (i 1).isLt
  have hi2 : (i 2).val < 768 := (i 2).isLt
  obtain ⟨t, ht⟩ := point_of_batch ⟨(i 0).val / 4, by omega⟩
  have q0 : win0_4.index t (0 : Fin 3) = (i 0).val / 4 := ht
  obtain ⟨-, -, -, -, -, -, -, -, -, a41, a42⟩ := block_indices t
  refine ⟨t, flush0_4 t, ?_⟩
  rw [mem_block]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 512 ≤ (i 1).val ∧ (i 1).val < win0_4.index t (1 : Fin 3) * 512 + 512; omega
  | ⟨2, _⟩ => show win0_4.index t (2 : Fin 3) * 768 ≤ (i 2).val ∧ (i 2).val < win0_4.index t (2 : Fin 3) * 768 + 768; omega

/-- THE ARRAY after the run is `outK` of the argument arrays. -/
theorem final (c : Dev nD) :
    (dats m 0 c).arrAt 4 cfg0.N = outK (m ((c : Thread nD τ).loc main_arg0)) (m ((c : Thread nD τ).loc main_arg1))
      (m ((c : Thread nD τ).loc main_arg2)) (m ((c : Thread nD τ).loc main_arg3)) :=
  (dats m 0 c).arrAt_eq_of_cover 4 (result m c) (fun t _ => flushed_eq m c t) covered

/-- The kernel's run, read: the result array at `outK` of the arguments, the arguments unchanged. -/
theorem run : θ_run defs (onTc (τ := τ) (main (F := Ideal))) ⟨m, fun _ => 0, ρ⟩ fun r => ∀ c : Dev nD,
      r.2.mem ((c : Thread nD τ).loc main_v0) = outK (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.ArrayValue

end
-- ==== Proof.FiniteArgs.lean ====
/-
  The precondition read back as a statement about real numbers.

  The precondition is the conjunction, over the four input arrays, of "every entry x satisfies |x| < +∞", where each
  conjunct is an all-reduction by `and` of the entrywise comparison of |x| with the word 0x7F800000, the single-precision
  pattern of +∞. At the exact reading an entry is an extended real, |x| is max x (-x), and the comparison is the strict
  order of the extended reals. An extended real whose absolute value lies strictly below +∞ is neither +∞ nor -∞, hence is
  a real number. The result is stated for the first two arrays.
-/
import proofs.«127466_j84473416778477_2_alg».proof.Pre_finite_inputs
import proofs.«127466_j84473416778477_2_alg».proof.Proof.Gen.Pre_finite_inputs
import Idealize.ShloMosaic.PureOps.Ideal
import Idealize.ShloMosaic.Lib.ReduceAll
import Idealize.ShloMosaic.Lib.ValueIdx

noncomputable section

namespace Cert.FiniteArgs

open Idealize.ShloMosaic Cert.Pre_finite_inputs

/-- The rank-0 shape has exactly one index: an index is a function on the empty set of axes. -/
instance subsingleton_scalar_idx : Subsingleton S_.Idx := ⟨fun a b => funext fun d => d.elim0⟩

/-- The single-precision word 0x7F800000 (sign 0, exponent all ones, significand 0) denotes +∞. -/
theorem inf_word : Ideal.ofBits .f32 0x7F800000#32 = (⊤ : EReal) := by
  simp [Ideal.ofBits, Ideal.ieee]

/-- An extended real x with |x| = max x (-x) strictly below +∞ is a real number: x = +∞ gives |x| = +∞, and x = -∞
    gives -x = +∞, so again |x| = +∞. -/
theorem real_of_abs_lt_top (x : EReal) (h : max x (-x) < ⊤) : ∃ r : ℝ, x = (r : EReal) := by
  induction x using EReal.rec with
  | bot => simp at h
  | coe r => exact ⟨r, rfl⟩
  | top => simp at h

/-- If the ordered comparison "|x| < the value of the word 0x7F800000" answers 1, then x is a real number. -/
theorem real_of_olt_inf (x : EReal)
    (h : Ideal.cmp .olt (max x (-x)) (Ideal.ofBits .f32 0x7F800000#32) = 1#1) : ∃ r : ℝ, x = (r : EReal) := by
  rw [inf_word] at h
  refine real_of_abs_lt_top x ?_
  by_contra hn
  simp [Ideal.cmp, hn] at h

/-- The same at an index of an array of any shape: the entrywise comparison of |x| with the broadcast scalar +∞ reads,
    at index i, the comparison of |x i| with +∞. -/
theorem real_at {s : Shape} (x : FVec Ideal s .f32) (bc : S_.BroadcastsInDim s (![] : Fin 0 → Fin s.rank)) (i : s.Idx)
    (h : cmpf .olt (Host.absf x) (broadcastInDim s ![] bc (constant S_ .f32 0x7F800000#32)) i = 1#1) :
    ∃ r : ℝ, x i = (r : EReal) :=
  real_of_olt_inf (x i) h

/-- Every entry of the first two input arrays is a real number. The precondition is a conjunction of four all-reductions
    by `and`; it equals 1, so each all-reduction equals 1, so each of its entries equals 1; the entry at index i of the
    first (second) one says that the absolute value of the i-th entry of the first (second) array is strictly below +∞,
    and an extended real with that property is real. -/
theorem real_entries [Cert.Pre_finite_inputs.Facts]
    (a0 : FVec Ideal Cert.Pre_finite_inputs.S64x64x768 .f32) (a1 : FVec Ideal Cert.Pre_finite_inputs.S64x64x512 .f32)
    (a2 a3 : FVec Ideal Cert.Pre_finite_inputs.S768 .f32)
    (h : Cert.Pre_finite_inputs.fn (F := Ideal) a0 a1 a2 a3 = (fun _ => 1#1)) :
    (∀ i, ∃ r : ℝ, a0 i = (r : EReal)) ∧ (∀ i, ∃ r : ℝ, a1 i = (r : EReal)) := by
  -- the precondition at its one index, with its chain of operations in view
  have e := congrFun h ValueIdx.ix0
  dsimp only [fn, fn_part1, andi] at e
  -- a conjunction of one-bit words is 1 exactly when each word is 1
  rw [IntOp.andi_eq_one, IntOp.andi_eq_one, IntOp.andi_eq_one] at e
  obtain ⟨⟨⟨e0, e1⟩, -⟩, -⟩ := e
  -- an all-reduction by `and` that is 1 met a 1 at every index
  exact ⟨fun i => real_at a0 _ i (Host.reduce_andi_all _ _ _ _ _ e0 i),
    fun i => real_at a1 _ i (Host.reduce_andi_all _ _ _ _ _ e1 i)⟩

end Cert.FiniteArgs

end
-- ==== Proof.lean ====
/-
  ExpandNodes + LayerNorm: a Pallas kernel against its jnp reference, equal at the exact (extended-real) reading.

  Arguments: state [64, 64, 768], mapping [64, 64, 512], gamma and beta [768]. Both programs form
      expand[n, l, h] = ∑ₑ mapping[n, e, l] · state[n, e, h]
  and normalize every row expand[n, l, ·] over h: subtract the mean, multiply by (variance + ε)^(-1/2), scale by
  gamma[h], shift by beta[h]. They differ in the variance only: the kernel takes (∑ x²)/768 − mean², in one pass over
  a block of four batches per grid point; the reference takes (∑ (x − mean)²)/768. Over the reals these are one
  number; on the extended reals the identity needs the row to be real, which it is because the precondition makes
  every entry of state and mapping a real number (an entry of the product is then a finite sum of products of reals).
  The changes of float format in the kernel are the identity on exact values, and its matrix product into a zero
  accumulator is the reference's contraction.

  Modules: RowLaw (the variance identity on a row of reals), Spec (the two whole-array functions `outK`, `outR` and their
  equality on real arguments), RefValue (the reference's run ends at `outR`), KernelBody (the body's stored value at
  an index), KernelArray (the sixteen blocks tile the result array, which ends at `outK`), FiniteArgs (the
  precondition makes the entries real). The three frames are the generated runs; the idealization rewrote nothing.
-/
import proofs.«127466_j84473416778477_2_alg».proof.Defs
import proofs.«127466_j84473416778477_2_alg».proof.Proof.Gen.Kernel
import proofs.«127466_j84473416778477_2_alg».proof.Proof.Gen.Kernel.Skeleton
import proofs.«127466_j84473416778477_2_alg».proof.Proof.Gen.Kernel.Launch
import proofs.«127466_j84473416778477_2_alg».proof.Proof.Gen.Kernel.Points
import proofs.«127466_j84473416778477_2_alg».proof.Proof.Gen.Kernel.Frame
import proofs.«127466_j84473416778477_2_alg».proof.Proof.Gen.KernelIdeal
import proofs.«127466_j84473416778477_2_alg».proof.Proof.Gen.KernelIdeal.Skeleton
import proofs.«127466_j84473416778477_2_alg».proof.Proof.Gen.KernelIdeal.Launch
import proofs.«127466_j84473416778477_2_alg».proof.Proof.Gen.KernelIdeal.Points
import proofs.«127466_j84473416778477_2_alg».proof.Proof.Gen.KernelIdeal.Frame
import proofs.«127466_j84473416778477_2_alg».proof.Proof.Gen.ReferenceIdeal
import proofs.«127466_j84473416778477_2_alg».proof.Proof.Gen.Pre_finite_inputs
import proofs.«127466_j84473416778477_2_alg».proof.Proof.Gen.KernelIdeal.Value
import proofs.«127466_j84473416778477_2_alg».proof.Proof.Gen.ReferenceIdeal.Run
import proofs.«127466_j84473416778477_2_alg».proof.Proof.Gen.ReferenceIdeal.Read
import proofs.«127466_j84473416778477_2_alg».proof.Proof.Spec
import proofs.«127466_j84473416778477_2_alg».proof.Proof.RefValue
import proofs.«127466_j84473416778477_2_alg».proof.Proof.KernelArray
import proofs.«127466_j84473416778477_2_alg».proof.Proof.FiniteArgs
import Idealize.ShloMosaic.Adequacy
import Idealize.ShloMosaic.Init

noncomputable section

namespace Cert.Proof

open Idealize.ShloMosaic Idealize.SL.Sem Cert.Kernel

/-- The kernel as printed runs and leaves its arguments as they were. -/
theorem frame_kernel : Cert.frame_Kernel := fun m ρ _ => Cert.Kernel.Gen.frame m ρ

/-- So does the kernel read at exact values. -/
theorem frame_kernel_ideal : Cert.frame_KernelIdeal := fun m ρ _ => Cert.KernelIdeal.Gen.frame m ρ

/-- The reference runs and leaves its arguments as they were: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The exact reading rewrote no operation of the kernel. -/
theorem preserves : Cert.preserves_Kernel_KernelIdeal := trivial

/-- From memories agreeing on the arguments, the kernel's result array ends at `outK` of its arguments and the
    reference's at `outR` of the same arguments; the precondition makes state and mapping real, where the two agree. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq_outR,
    (hagree c).1, (hagree c).2.1, (hagree c).2.2.1, (hagree c).2.2.2]
  exact Cert.ExpandNorm.outR_eq_outK _ _ _ _ (Cert.FiniteArgs.real_entries _ _ _ _ (hpre c)).1
    (Cert.FiniteArgs.real_entries _ _ _ _ (hpre c)).2

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
